-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S1024x256 : Shape := ⟨2, ![1024, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S65536x256 .f32) (main_arg1 : FVec F S1024x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S65536x256 : Shape := ⟨2, ![65536, 256]⟩
abbrev S1024x256 : Shape := ⟨2, ![1024, 256]⟩
abbrev S65536x1024 : Shape := ⟨2, ![65536, 1024]⟩
abbrev S2048x256 : Shape := ⟨2, ![2048, 256]⟩
abbrev S2048x1024 : Shape := ⟨2, ![2048, 1024]⟩
abbrev S2048 : Shape := ⟨1, ![2048]⟩
abbrev S2048x1 : Shape := ⟨2, ![2048, 1]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S65536x256, .f32⟩
  | .hbm, ⟨1, _⟩ => ⟨S1024x256, .f32⟩
  | .hbm, ⟨2, _⟩ => ⟨S65536x1024, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S2048x1024, .f32⟩
  | .local _ .vmem, ⟨4, _⟩ => ⟨S2048x1024, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x256_S2048x256_0_0 : ∀ a, (![0, 0] : Fin 2 → Nat) a + S2048x256.size a ≤ S2048x256.size a
  h_S2048x256 : 0 < S2048x256.numel
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  reduces_S2048x256_S2048 : S2048x256.Reduces [1] S2048
  shapeCasts_S2048_S2048x1 : S2048.ShapeCasts S2048x1
  reduces_S1024x256_S1024 : S1024x256.Reduces [1] S1024
  shapeCasts_S1024_S1024x1 : S1024.ShapeCasts S1024x1
  shapeCasts_S1024x1_S1x1024 : S1024x1.ShapeCasts S1x1024
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S65536x1024.size a
  hwx0_2 : ∀ i : grid0.Coords, EltTy.bits .f32 = 32 ∨ (Rect.block (s := S65536x1024) S2048x1024.size (cc0_transform_2 i) (hinb0_2 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x256 : Shape := ⟨2, ![65536, 256]⟩
abbrev S1024x256 : Shape := ⟨2, ![1024, 256]⟩
abbrev S65536x1024 : Shape := ⟨2, ![65536, 1024]⟩
abbrev S_ : Shape := ⟨0, ![]⟩
abbrev S65536 : Shape := ⟨1, ![65536]⟩
abbrev S1024 : Shape := ⟨1, ![1024]⟩
abbrev S65536x1 : Shape := ⟨2, ![65536, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S1024x256, .f32⟩
  | .hbm, ⟨2, _⟩ => ⟨S65536x1024, .f32⟩
  | .hbm, ⟨3, _⟩ => ⟨S65536x256, .f32⟩
  | .hbm, ⟨4, _⟩ => ⟨S_, .f32⟩
  | .hbm, ⟨5, _⟩ => ⟨S65536, .f32⟩
  | .hbm, ⟨6, _⟩ => ⟨S65536, .f32⟩
  | .hbm, ⟨7, _⟩ => ⟨S1024x256, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S65536x1, .f32⟩
  | .hbm, ⟨12, _⟩ => ⟨S1x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S_, .f32⟩
  | .hbm, ⟨17, _⟩ => ⟨S65536x1024, .f32⟩
  | .hbm, ⟨18, _⟩ => ⟨S65536x1024, .f32⟩
  | .hbm, ⟨19, _⟩ => ⟨S65536x1024, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  reducesTo_S1024x256_S1024_d1 : S1024x256.ReducesTo [1] S1024
  bcast_S65536_S65536x1_0 : S65536.BroadcastsInDim S65536x1 (![0] : Fin 1 → Fin S65536x1.rank)
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  dot_S65536x256_S1024x256_S65536x1024_1_1_0_0_n_n_wf : DotDims.WF S65536x256 S1024x256 S65536x1024 [1] [1] [0] [0] [] []

variable [Facts₀]

def dot_S65536x256_S1024x256_S65536x1024_1_1_0_0_n_n : DotDims S65536x256 S1024x256 S65536x1024 where
  lhsContracting := [1]
  rhsContracting := [1]
  lhsNonContracting := [0]
  rhsNonContracting := [0]
  lhsBatch := []
  rhsBatch := []
  wf := dot_S65536x256_S1024x256_S65536x1024_1_1_0_0_n_n_wf

class Facts : Prop extends Facts₀ where

variable [Facts]
-- ==== Proof.CosineSpec.lean ====
/-
  The specification both programs are measured against: cosine similarity of every text row with every
  label row, over the extended reals.

  For a text row `a` and a label row `b` (256 entries each) the result entry is

      (∑ₖ aₖ · bₖ) / max (√(∑ₖ aₖ²) · √(∑ₖ bₖ²)) ε

  where `ε` is the f32 word both programs carry for `1e-8` (the same word on both sides, so it is never
  evaluated), the quotient is the extended reals' `Ideal.div` and the root is `Ideal.sqrt`. The whole result
  array, of shape [65536, 1024], holds at `(n, l)` the entry of text row `n` and label row `l`.
-/
import Idealize.ShloMosaic.PureOps.Ideal
import Idealize.ShloMosaic.Lib.ValueIdx

noncomputable section

open scoped BigOperators
open Idealize.ShloMosaic Idealize.ShloMosaic.ValueIdx

namespace Cert.CosineSpec

/-- The floor under the product of the two norms: the extended real the f32 word `0x322BCC77` denotes. -/
def normFloor : EReal := Ideal.ofBits .f32 0x322BCC77#32

/-- The cosine similarity of two rows of 256 extended reals, the product of their norms floored at `normFloor`. -/
def rowCosine (a b : Fin 256 → EReal) : EReal :=
  Ideal.div (∑ k : Fin 256, a k * b k)
    (max (Ideal.sqrt (∑ k : Fin 256, a k * a k) * Ideal.sqrt (∑ k : Fin 256, b k * b k)) normFloor)

/-- The entry for text row `n` and label row `l` of the two argument arrays. -/
def entry (x : (⟨2, ![65536, 256]⟩ : Shape).Idx → EReal) (y : (⟨2, ![1024, 256]⟩ : Shape).Idx → EReal)
    (n : Fin 65536) (l : Fin 1024) : EReal :=
  rowCosine (fun k => x (ix2 n k)) (fun k => y (ix2 l k))

/-- The whole result array as one function of the two argument arrays, index by index. -/
def cosine (x : (⟨2, ![65536, 256]⟩ : Shape).Idx → EReal) (y : (⟨2, ![1024, 256]⟩ : Shape).Idx → EReal) :
    (⟨2, ![65536, 1024]⟩ : Shape).Idx → EReal :=
  fun i => entry x y (i 0) (i 1)

/-- At an index written by its coordinates the array reads the rows' entry. -/
theorem cosine_ix2 (x : (⟨2, ![65536, 256]⟩ : Shape).Idx → EReal) (y : (⟨2, ![1024, 256]⟩ : Shape).Idx → EReal)
    (n : Fin 65536) (l : Fin 1024) : cosine x y (ix2 n l) = entry x y n l := rfl

end Cert.CosineSpec

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.KernelEntry.lean ====
/-
  What the kernel body stores, read at one entry of its [2048, 1024] output block.

  The body holds a block `v0` of 2048 text rows and the whole label array `v1` (1024 rows), both with 256
  columns. At `(p, q)` it stores the quotient of the matrix product's entry — onto a zero accumulator, the two
  operands narrowed to bf16 first, which at the ideal values changes nothing — by the larger of the floor word
  and `√(∑ₖ v0(p,k)²) · √(∑ₖ v1(q,k)²)`: the text rows' norms kept as a column and spread over the columns, the
  label rows' norms kept as a column, turned into a row and spread over the rows. That is `rowCosine` of row
  `p` of `v0` and row `q` of `v1`.
-/
import proofs.«170294_j22531398435242_1_alg».proof.Proof.Gen.KernelIdeal.Skeleton
import proofs.«170294_j22531398435242_1_alg».proof.Proof.CosineSpec
import proofs.«170294_j22531398435242_1_alg».proof.Proof.LibKeepdims
import Idealize.ShloMosaic.PureOps.Ideal.Laws
import Idealize.ShloMosaic.Lib.ValueIdx

noncomputable section

open scoped BigOperators
open Idealize.ShloMosaic Idealize.ShloMosaic.ValueIdx

namespace Cert.KernelIdeal.Entry

open Cert.KernelIdeal Cert.KernelIdeal.Gen Cert.CosineSpec Cert.LibKeepdims

/-- The block product's dimension numbers: rows of the left operand against rows of the right, contracting the
    last axis of both. -/
abbrev blockDot : DotDims S2048x256 S1024x256 S2048x1024 := dot_S2048x256_S1024x256_S2048x1024_1_1_0_0_n_n

/-- The left operand's row at output `i` is `i`'s row. -/
theorem lhs_row (i : S2048x1024.Idx) (s : blockDot.contr.Idx) : (blockDot.lhsIdx i s 0).val = (i 0).val := by
  unfold DotDims.lhsIdx
  rw [dif_neg (show ¬(0 : Fin S2048x256.rank) ∈ blockDot.lhsBatch by decide),
    dif_pos (show (0 : Fin S2048x256.rank) ∈ blockDot.lhsNonContracting by decide)]
  rfl

/-- The right operand's row at output `i` is `i`'s column. -/
theorem rhs_row (i : S2048x1024.Idx) (s : blockDot.contr.Idx) : (blockDot.rhsIdx i s 0).val = (i 1).val := by
  unfold DotDims.rhsIdx
  rw [dif_neg (show ¬(0 : Fin S1024x256.rank) ∈ blockDot.rhsBatch by decide),
    dif_pos (show (0 : Fin S1024x256.rank) ∈ blockDot.rhsNonContracting by decide)]
  rfl

/-- The matrix product onto a zero accumulator, at `(p, q)`: the sum over the 256 columns of the products of row
    `p` of the left operand and row `q` of the right. -/
theorem matmul_entry (a : FVec Ideal S2048x256 .bf16) (b : FVec Ideal S1024x256 .bf16) (p : Fin 2048) (q : Fin 1024) :
    matmul blockDot none a b (constant S2048x1024 .f32 0x00000000#32) (ix2 p q)
      = ∑ k : Fin 256, a (ix2 p k) * b (ix2 q k) := by
  refine (Ideal.matmul_constant_zero_apply blockDot none a b (ix2 p q)).trans ?_
  rw [← Equiv.sum_comp (contrEquiv1 blockDot 256 rfl rfl).symm]
  refine Finset.sum_congr rfl fun k _ => ?_
  have hk := contrEquiv1_symm_val blockDot 256 rfl rfl k
  have el : blockDot.lhsIdx (ix2 p q) ((contrEquiv1 blockDot 256 rfl rfl).symm k) = ix2 p k := funext fun ax => Fin.ext (by
    match ax with
    | ⟨0, _⟩ => exact lhs_row _ _
    | ⟨1, _⟩ => exact (blockDot.lhsIdx_val_of_single rfl _ _).trans hk)
  have er : blockDot.rhsIdx (ix2 p q) ((contrEquiv1 blockDot 256 rfl rfl).symm k) = ix2 q k := funext fun ax => Fin.ext (by
    match ax with
    | ⟨0, _⟩ => exact rhs_row _ _
    | ⟨1, _⟩ => exact (blockDot.rhsIdx_val_of_single rfl _ _).trans hk)
  rw [el, er]

/-- THE STORED VALUE at `(p, q)` is the cosine entry of row `p` of the text block and row `q` of the labels. -/
theorem payload_entry (v0 : Vec Ideal S2048x256 .f32) (v1 : Vec Ideal S1024x256 .f32) (p : Fin 2048) (q : Fin 1024) :
    k0_pay1 (F := Ideal) v0 v1 (ix2 p q) = rowCosine (fun k => v0 (ix2 p k)) (fun k => v1 (ix2 q k)) := by
  unfold k0_pay1
  dsimp only
  refine congrArg₂ Ideal.div (matmul_entry _ _ p q) (congrArg₂ max (congrArg₂ (fun s t : EReal => s * t) ?_ ?_) rfl)
  · -- the text rows' norms: a column spread over the columns
    refine (broadcastTo_a1_ab_apply _ _ p q 0).trans (congrArg Ideal.sqrt ?_)
    refine (shapeCast_a_a1_apply _ _ p 0).trans ?_
    exact multiReduction_add_lastAxis_apply (mulf v0 v0) _ _ _ _ p
  · -- the label rows' norms: a column turned into a row and spread over the rows
    refine (broadcastTo_1b_ab_apply _ _ p q).trans ?_
    refine (shapeCast_a1_1a_apply _ _ 0 q 0).trans (congrArg Ideal.sqrt ?_)
    refine (shapeCast_a_a1_apply _ _ q 0).trans ?_
    exact multiReduction_add_lastAxis_apply (mulf v1 v1) _ _ _ _ q

end Cert.KernelIdeal.Entry

end
-- ==== Proof.KernelArray.lean ====
/-
  From what one grid point writes back to the whole result array.

  The grid has 32 points. Point `t` works on text rows `2048·t … 2048·t + 2047` (its text block is block `t` of
  the text array along the rows), on the WHOLE label array (every point's label block is block 0, and the block is
  the array), and writes back block `t` of the result along the rows (all 1024 columns). So what point `t` writes
  back is, entry by entry, `cosine` of the two argument arrays read at rows `2048·t + p`: block `t` of ONE
  whole-array function. The 32 blocks tile the 65536 rows — row `r` lies in block `r / 2048` — so after the run
  the result array is `cosine` of the arguments.
-/
import proofs.«170294_j22531398435242_1_alg».proof.Proof.Gen.KernelIdeal.Value
import proofs.«170294_j22531398435242_1_alg».proof.Proof.KernelEntry
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value Cert.KernelIdeal.Entry Cert.CosineSpec

variable (m : (ℓ : Loc nD τ sig) → Buf (Elt Ideal) ℓ) (ρ : Dev nD → PrngReg)

theorem zero_offsets : (![0, 0] : Fin 2 → Nat) = fun _ => 0 := funext fun a => by fin_cases a <;> rfl

/-- The three index maps over the grid: the text and result blocks move down the rows with the point, the label
    block stays; none moves along the columns. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point `t`'s text block at `(p, k)` is the text array at `(2048·t + p, k)`. -/
theorem text_block (c : Dev nD) (t : Fin cfg0.N) (y : S2048x256.Idx) (k : S65536x256.Idx)
    (hk0 : (k 0).val = t.val * 2048 + (y 0).val) (hk1 : (k 1).val = (y 1).val) :
    (iblk m c 0 t : Vec Ideal S2048x256 .f32) y = (m ((c : Thread nD τ).loc main_arg0) : S65536x256.Idx → EReal) k := by
  obtain ⟨e0, e1, -⟩ := block_indices t
  unfold iblk
  rw [View.read_apply]
  show V m c main_arg0 _ = m (c.tc.loc main_arg0) _
  unfold V
  congr 1
  funext a
  apply Fin.ext
  match a with
  | ⟨0, _⟩ => show win0_0.index t (0 : Fin 2) * 2048 + 1 * (y 0).val = (k 0).val; rw [e0, hk0]; omega
  | ⟨1, _⟩ => show win0_0.index t (1 : Fin 2) * 256 + 1 * (y 1).val = (k 1).val; rw [e1, hk1]; omega

/-- Every point's label block is the label array. -/
theorem label_block (c : Dev nD) (t : Fin cfg0.N) (y : S1024x256.Idx) (k : S1024x256.Idx)
    (hk0 : (k 0).val = (y 0).val) (hk1 : (k 1).val = (y 1).val) :
    (iblk m c 1 t : Vec Ideal S1024x256 .f32) y = (m ((c : Thread nD τ).loc main_arg1) : S1024x256.Idx → EReal) k := by
  obtain ⟨-, -, e2, e3, -⟩ := block_indices t
  unfold iblk
  rw [View.read_apply]
  show V m c main_arg1 _ = m (c.tc.loc main_arg1) _
  unfold V
  congr 1
  funext a
  apply Fin.ext
  match a with
  | ⟨0, _⟩ => show win0_1.index t (0 : Fin 2) * 1024 + 1 * (y 0).val = (k 0).val; rw [e2, hk0]; omega
  | ⟨1, _⟩ => show win0_1.index t (1 : Fin 2) * 256 + 1 * (y 1).val = (k 1).val; rw [e3, hk1]; omega

/-- A block of 2048 text rows starting at row `2048·b`, beside the whole label array: the stored value at `j` is
    `cosine` of the two arrays at the index `i` that sits `2048·b` rows below `j`. -/
theorem stored_is_cosine (X : S65536x256.Idx → EReal) (Y : S1024x256.Idx → EReal)
    (v0 : Vec Ideal S2048x256 .f32) (v1 : Vec Ideal S1024x256 .f32) (b : ℕ)
    (h0 : ∀ (y : S2048x256.Idx) (k : S65536x256.Idx), (k 0).val = b * 2048 + (y 0).val → (k 1).val = (y 1).val → v0 y = X k)
    (h1 : ∀ (y : S1024x256.Idx) (k : S1024x256.Idx), (k 0).val = (y 0).val → (k 1).val = (y 1).val → v1 y = Y k)
    (j : S2048x1024.Idx) (i : S65536x1024.Idx) (hi0 : (i 0).val = b * 2048 + (j 0).val) (hi1 : (i 1).val = (j 1).val) :
    k0_pay1 (F := Ideal) v0 v1 j = cosine X Y i := by
  obtain ⟨p, q, rfl⟩ : ∃ (p : Fin 2048) (q : Fin 1024), j = ix2 p q := ⟨j 0, j 1, eq_ix2 j⟩
  obtain ⟨n, l, rfl⟩ : ∃ (n : Fin 65536) (l : Fin 1024), i = ix2 n l := ⟨i 0, i 1, eq_ix2 i⟩
  have hn : n.val = b * 2048 + p.val := hi0
  have hl : l.val = q.val := hi1
  rw [payload_entry, cosine_ix2]
  unfold entry
  congr 1
  · funext k; exact h0 (ix2 p k) (ix2 n k) hn rfl
  · funext k; exact h1 (ix2 q k) (ix2 l k) hl rfl

/-- WHAT POINT `t` WRITES BACK is block `t` of `cosine` of the argument arrays. -/
theorem flushed_eq (c : Dev nD) (t : Fin cfg0.N) :
    (dats m 0 c).flushed 2 t = ((cfg0.win 2).blk t).view.read (Elt Ideal)
      (cosine (m ((c : Thread nD τ).loc main_arg0)) (m ((c : Thread nD τ).loc main_arg1))) := by
  rw [flushed2]
  unfold out0_2
  rw [View.canon_unit_zero zero_offsets]
  simp only [View.ld_unit_zero (S := S2048x256) zero_offsets, View.ld_unit_zero (S := S1024x256) zero_offsets]
  obtain ⟨-, -, -, -, e4, e5⟩ := block_indices t
  funext j
  show k0_pay1 (F := Ideal) (iblk m c 0 t) (iblk m c 1 t) j
    = cosine (m ((c : Thread nD τ).loc main_arg0)) (m ((c : Thread nD τ).loc main_arg1)) (((cfg0.win 2).blk t).view.emb j)
  refine stored_is_cosine (m ((c : Thread nD τ).loc main_arg0)) (m ((c : Thread nD τ).loc main_arg1))
    (iblk m c 0 t) (iblk m c 1 t) t.val (fun y k h0 h1 => text_block m c t y k h0 h1)
    (fun y k h0 h1 => label_block m c t y k h0 h1) j (((cfg0.win 2).blk t).view.emb j) ?_ ?_
  · show win0_2.index t (0 : Fin 2) * 2048 + 1 * (j 0).val = t.val * 2048 + (j 0).val
    rw [e4]; omega
  · show win0_2.index t (1 : Fin 2) * 1024 + 1 * (j 1).val = (j 1).val
    rw [e5]; omega

/-- An index of the result array is in point `t`'s block iff each coordinate is in the block's range on its axis. -/
theorem mem_block (t : Fin cfg0.N) (i : S65536x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v0).slice (win0_2.rect t)).set ↔ _
  rw [View.set_slice_whole, Rect.mem_set_unit]
  exact Iff.rfl

/-- The blocks tile the rows: row `r` of the result lies in the block of point `r / 2048`, which writes back. -/
theorem covered (i : S65536x1024.Idx) :
    ∃ t : Fin cfg0.N, (cfg0.win 2).flush t = true ∧ i ∈ ((cfg0.win 2).blk t).view.set := by
  have hi0 : (i 0).val < 65536 := (i 0).isLt
  have hi1 : (i 1).val < 1024 := (i 1).isLt
  have hN : grid0.N = 32 := N_0
  have ht : (i 0).val / 2048 < cfg0.N := by show (i 0).val / 2048 < grid0.N; rw [hN]; omega
  obtain ⟨-, -, -, -, e4, e5⟩ := block_indices ⟨(i 0).val / 2048, ht⟩
  refine ⟨⟨(i 0).val / 2048, ht⟩, flush0_2 _, ?_⟩
  rw [mem_block]
  intro a
  match a with
  | ⟨0, _⟩ =>
    show win0_2.index ⟨(i 0).val / 2048, ht⟩ (0 : Fin 2) * 2048 ≤ (i 0).val
      ∧ (i 0).val < win0_2.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win0_2.index ⟨(i 0).val / 2048, ht⟩ (1 : Fin 2) * 1024 ≤ (i 1).val
      ∧ (i 1).val < win0_2.index ⟨(i 0).val / 2048, ht⟩ (1 : Fin 2) * 1024 + 1024
    rw [e5]; omega

/-- THE RESULT ARRAY after the run is `cosine` of the two argument arrays. -/
theorem final (c : Dev nD) :
    (dats m 0 c).arrAt 2 cfg0.N = cosine (m ((c : Thread nD τ).loc main_arg0)) (m ((c : Thread nD τ).loc main_arg1)) :=
  (dats m 0 c).arrAt_eq_of_cover 2 _ (fun t _ => flushed_eq m c t) covered

/-- The kernel's run, read: every weakly fair execution ends with the result array at `cosine` of the arguments, the
    arguments unchanged. -/
theorem run : θ_run defs (onTc (τ := τ) (main (F := Ideal))) ⟨m, fun _ => 0, ρ⟩ fun r => ∀ c : Dev nD,
      r.2.mem ((c : Thread nD τ).loc main_v0) = cosine (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.ReferenceEntry.lean ====
/-
  The reference's result array is the specification's `cosine` of its two arguments.

  Read one operation at a time, the reference's last value at `(n, l)` is the quotient of the contraction
  `∑ₖ x(n,k) · y(l,k)` by the larger of the floor word and the product of two roots; the first root is of
  `0 + ∑ₖ x(n,k)²` (a sum over the last axis onto a zero initial value, read through two broadcasts that put
  the row's norm in every column), the second of `0 + ∑ₖ y(l,k)²` (likewise, put in every row). The zero
  initial values drop, and what is left is `rowCosine` of row `n` of `x` and row `l` of `y`.
-/
import proofs.«170294_j22531398435242_1_alg».proof.Proof.Gen.ReferenceIdeal.Read
import proofs.«170294_j22531398435242_1_alg».proof.Proof.CosineSpec

noncomputable section

open scoped BigOperators
open Idealize.ShloMosaic Idealize.ShloMosaic.ValueIdx

namespace Cert.ReferenceIdeal.Entry

open Cert.ReferenceIdeal Cert.ReferenceIdeal.Gen Cert.ReferenceIdeal.Read Cert.CosineSpec

/-- The contraction's left operand index at result `(n, l)` and position `k` is `(n, k)`. -/
theorem lidx_eq (n : Fin 65536) (l : Fin 1024) (k : Fin 256) : lidx_main_v0 (ix2 n l) k = ix2 n k :=
  funext fun a => Fin.ext (by match a with | ⟨0, _⟩ => rfl | ⟨1, _⟩ => rfl)

/-- Its right operand index is `(l, k)`. -/
theorem ridx_eq (n : Fin 65536) (l : Fin 1024) (k : Fin 256) : ridx_main_v0 (ix2 n l) k = ix2 l k :=
  funext fun a => Fin.ext (by match a with | ⟨0, _⟩ => rfl | ⟨1, _⟩ => rfl)

/-- Through the two broadcasts, the text norm read at `(n, l)` sums row `n`: position `k` of that sum is `(n, k)`. -/
theorem text_idx_eq (n : Fin 65536) (l : Fin 1024) (k : Fin 256) :
    idx_main_call0_v1 (idx_main_v3 (idx_main_v5 (ix2 n l))) k = ix2 n k :=
  funext fun a => Fin.ext (by match a with | ⟨0, _⟩ => rfl | ⟨1, _⟩ => rfl)

/-- Through the two broadcasts, the label norm read at `(n, l)` sums row `l`: position `k` of that sum is `(l, k)`. -/
theorem label_idx_eq (n : Fin 65536) (l : Fin 1024) (k : Fin 256) :
    idx_main_call1_v1 (idx_main_v4 (idx_main_v6 (ix2 n l))) k = ix2 l k :=
  funext fun a => Fin.ext (by match a with | ⟨0, _⟩ => rfl | ⟨1, _⟩ => rfl)

/-- The reference's last value at `(n, l)` is the cosine entry of text row `n` and label row `l`. -/
theorem result_entry (x0 : (⟨S65536x256, .f32⟩ : BufTy).Contents (Elt Ideal)) (x1 : (⟨S1024x256, .f32⟩ : BufTy).Contents (Elt Ideal))
    (n : Fin 65536) (l : Fin 1024) :
    val_main_v10 (F := Ideal) x0 x1 (ix2 n l) = entry x0 x1 n l := by
  rw [val_main_v10_apply, val_main_v0_apply, val_main_v9_apply, val_main_v7_apply, val_main_v8_apply, val_main_cst_apply,
    val_main_v5_apply, val_main_v3_apply, val_main_v1_apply, val_main_call0_v1_apply, val_main_call0_cst_apply,
    val_main_v6_apply, val_main_v4_apply, val_main_v2_apply, val_main_call1_v1_apply, val_main_call1_cst_apply]
  simp only [val_main_call0_v0_apply, val_main_call1_v0_apply, lidx_eq, ridx_eq, text_idx_eq, label_idx_eq,
    Ideal.hostDivf_def, Ideal.maximumf_def, Ideal.mulf_def, Ideal.hostUnary_sqrt_def, Ideal.ofBits_def,
    Ideal.ofBits_zero_f32, zero_add]
  rfl

/-- So the reference's result array IS the specification's array of its arguments. -/
theorem result_eq (x0 : (⟨S65536x256, .f32⟩ : BufTy).Contents (Elt Ideal)) (x1 : (⟨S1024x256, .f32⟩ : BufTy).Contents (Elt Ideal)) :
    val_main_v10 (F := Ideal) x0 x1 = cosine x0 x1 := by
  funext i
  obtain ⟨n, l, rfl⟩ : ∃ (n : Fin 65536) (l : Fin 1024), i = ix2 n l := ⟨i 0, i 1, eq_ix2 i⟩
  exact result_entry x0 x1 n l

end Cert.ReferenceIdeal.Entry

end
-- ==== Proof.lean ====
/-
  Cosine similarity of 65536 text rows against 1024 label rows (256 columns each), computed block by block on a
  grid of 32 points, against the same quantity computed by one whole contraction and two row norms.

  Both programs, read over the extended reals, compute at `(n, l)`

      (∑ₖ x(n,k) · y(l,k)) / max (√(∑ₖ x(n,k)²) · √(∑ₖ y(l,k)²)) ε

  with the same floor word `ε`. Over the extended reals a narrowing to bf16 is the identity, a matrix product onto a
  zero accumulator and a contraction are the same sum, and a lane sum and a sum onto a zero initial value are the
  same sum; so the two sides are one function of the argument arrays, with no law of arithmetic needed beyond
  `0 + s = s` — in particular nothing that could fail at an infinity, and the finiteness of the inputs is not used.

  • `CosineSpec` states that function (`cosine`).
  • `ReferenceEntry` reads the reference's operations one at a time and finds `cosine` of its arguments.
  • `KernelEntry` reads what the kernel body stores at one entry of its output block.
  • `KernelArray` shows that grid point `t` writes back block `t` of `cosine` of the arguments (its text block is
    rows `2048·t …` of the text array, its label block the whole label array), and that the 32 blocks tile the
    result array, so the array after the run is `cosine` of the arguments.
  The three programs' runs (termination, no fault, the argument arrays unchanged) are the generated frames; the
  idealized kernel is the kernel's own text read over the extended reals, so nothing is owed for `preserves`.
-/
import proofs.«170294_j22531398435242_1_alg».proof.Defs
import proofs.«170294_j22531398435242_1_alg».proof.Proof.Gen.Kernel
import proofs.«170294_j22531398435242_1_alg».proof.Proof.Gen.Kernel.Skeleton
import proofs.«170294_j22531398435242_1_alg».proof.Proof.Gen.Kernel.Launch
import proofs.«170294_j22531398435242_1_alg».proof.Proof.Gen.Kernel.Points
import proofs.«170294_j22531398435242_1_alg».proof.Proof.Gen.Kernel.Frame
import proofs.«170294_j22531398435242_1_alg».proof.Proof.Gen.KernelIdeal
import proofs.«170294_j22531398435242_1_alg».proof.Proof.Gen.KernelIdeal.Skeleton
import proofs.«170294_j22531398435242_1_alg».proof.Proof.Gen.KernelIdeal.Launch
import proofs.«170294_j22531398435242_1_alg».proof.Proof.Gen.KernelIdeal.Points
import proofs.«170294_j22531398435242_1_alg».proof.Proof.Gen.KernelIdeal.Frame
import proofs.«170294_j22531398435242_1_alg».proof.Proof.Gen.KernelIdeal.Value
import proofs.«170294_j22531398435242_1_alg».proof.Proof.Gen.ReferenceIdeal
import proofs.«170294_j22531398435242_1_alg».proof.Proof.Gen.ReferenceIdeal.Run
import proofs.«170294_j22531398435242_1_alg».proof.Proof.Gen.ReferenceIdeal.Read
import proofs.«170294_j22531398435242_1_alg».proof.Proof.Gen.Pre_finite_inputs
import proofs.«170294_j22531398435242_1_alg».proof.Proof.KernelArray
import proofs.«170294_j22531398435242_1_alg».proof.Proof.ReferenceEntry
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result's clause dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two arguments, the kernel's result array ends at `cosine` of them
    (`KernelArray`) and the reference's at its operations' term of them, which is `cosine` of them too
    (`ReferenceEntry`). -/
theorem algebraic : Cert.algebraic_KernelIdeal_ReferenceIdeal := by
  intro m ρ m' ρ' _ hagree
  refine ⟨fun c => Cert.CosineSpec.cosine (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v10_eq _ _).trans (Cert.ReferenceIdeal.Entry.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
